-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x4096x1024 .f32) (main_arg1 : FVec F S1024x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S32768x1024 : Shape := ⟨2, ![32768, 1024]⟩
abbrev S1x128 : Shape := ⟨2, ![1, 128]⟩
abbrev S32768x128 : Shape := ⟨2, ![32768, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩
abbrev S8x4096x128 : Shape := ⟨3, ![8, 4096, 128]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S1024x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32768x1024, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S32768x128, .f32⟩
  | .hbm, ⟨12, _⟩ => ⟨S8x4096x128, .f32⟩
  | .local _ .vmem, ⟨0, _⟩ => ⟨S2048x1024, .f32⟩
  | .local _ .vmem, ⟨1, _⟩ => ⟨S2048x1024, .f32⟩
  | .local _ .vmem, ⟨2, _⟩ => ⟨S1024x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2048x128, .f32⟩
  | .local _ .vmem, ⟨9, _⟩ => ⟨S2048x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  shapeCasts_S128_S1x128 : S128.ShapeCasts S1x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  shapeCasts_S32768x128_S8x4096x128 : S32768x128.ShapeCasts S8x4096x128
  dot_S2048x1024_S1024x128_S2048x128_1_0_0_1_n_n_wf : DotDims.WF S2048x1024 S1024x128 S2048x128 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S32768x128.size a
  hwx0_7 : ∀ i : grid0.Coords, EltTy.bits .f32 = 32 ∨ (Rect.block (s := S32768x128) S2048x128.size (cc0_transform_7 i) (hinb0_7 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S2048x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x128 : Shape := ⟨2, ![1024, 128]⟩
abbrev S128 : Shape := ⟨1, ![128]⟩
abbrev S128x128 : Shape := ⟨2, ![128, 128]⟩
abbrev S8x4096x128 : Shape := ⟨3, ![8, 4096, 128]⟩
abbrev S1x1x128 : Shape := ⟨3, ![1, 1, 128]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S8x4096x128, .f32⟩
  | .hbm, ⟨8, _⟩ => ⟨S1x1x128, .f32⟩
  | .hbm, ⟨9, _⟩ => ⟨S8x4096x128, .f32⟩
  | .hbm, ⟨10, _⟩ => ⟨S8x4096x128, .f32⟩
  | .hbm, ⟨11, _⟩ => ⟨S8x4096x128, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x128, .f32⟩
  | .hbm, ⟨23, _⟩ => ⟨S8x4096x128, .f32⟩
  | .hbm, ⟨24, _⟩ => ⟨S8x4096x128, .f32⟩
  | .hbm, ⟨25, _⟩ => ⟨S1x1x128, .f32⟩
  | .hbm, ⟨26, _⟩ => ⟨S8x4096x128, .f32⟩
  | .hbm, ⟨27, _⟩ => ⟨S8x4096x128, .f32⟩
  | .hbm, ⟨28, _⟩ => ⟨S8x4096x128, .f32⟩
  | .hbm, ⟨29, _⟩ => ⟨S8x4096x128, .f32⟩
  | .hbm, ⟨30, _⟩ => ⟨S_, .f32⟩
  | .hbm, ⟨31, _⟩ => ⟨S8x4096x128, .f32⟩
  | .hbm, ⟨32, _⟩ => ⟨S8x4096x128, .f32⟩
  | .hbm, ⟨33, _⟩ => ⟨S_, .f32⟩
  | .hbm, ⟨34, _⟩ => ⟨S8x4096x128, .f32⟩
  | .hbm, ⟨35, _⟩ => ⟨S8x4096x128, .f32⟩
  | .hbm, ⟨36, _⟩ => ⟨S8x4096x128, .f32⟩
  | .hbm, ⟨37, _⟩ => ⟨S8x4096x128, .f32⟩
  | .hbm, ⟨38, _⟩ => ⟨S1x1x128, .f32⟩
  | .hbm, ⟨39, _⟩ => ⟨S8x4096x128, .f32⟩
  | .hbm, ⟨40, _⟩ => ⟨S8x4096x128, .f32⟩
  | .hbm, ⟨41, _⟩ => ⟨S_, .f32⟩
  | .hbm, ⟨42, _⟩ => ⟨S8x4096x128, .f32⟩
  | .hbm, ⟨43, _⟩ => ⟨S8x4096x128, .f32⟩
  | .hbm, ⟨44, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S8x4096x128_0_1_2 : S1x1x128.BroadcastsInDim S8x4096x128 (![0, 1, 2] : Fin 3 → Fin S8x4096x128.rank)
  reducesTo_S8x4096x128_S8x4096_d2 : S8x4096x128.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x128_0_1_2 : S8x4096x1.BroadcastsInDim S8x4096x128 (![0, 1, 2] : Fin 3 → Fin S8x4096x128.rank)
  bcast_S_S8x4096x128 : S_.BroadcastsInDim S8x4096x128 (![] : Fin 0 → Fin S8x4096x128.rank)
  dot_S8x4096x1024_S1024x128_S8x4096x128_2_0_01_1_n_n_wf : DotDims.WF S8x4096x1024 S1024x128 S8x4096x128 [2] [0] [0, 1] [1] [] []
  dot_S8x4096x128_S128x128_S8x4096x128_2_0_01_1_n_n_wf : DotDims.WF S8x4096x128 S128x128 S8x4096x128 [2] [0] [0, 1] [1] [] []

variable [Facts₀]

def dot_S8x4096x1024_S1024x128_S8x4096x128_2_0_01_1_n_n : DotDims S8x4096x1024 S1024x128 S8x4096x128 where
  lhsContracting := [2]
  rhsContracting := [0]
  lhsNonContracting := [0, 1]
  rhsNonContracting := [1]
  lhsBatch := []
  rhsBatch := []
  wf := dot_S8x4096x1024_S1024x128_S8x4096x128_2_0_01_1_n_n_wf
def dot_S8x4096x128_S128x128_S8x4096x128_2_0_01_1_n_n : DotDims S8x4096x128 S128x128 S8x4096x128 where
  lhsContracting := [2]
  rhsContracting := [0]
  lhsNonContracting := [0, 1]
  rhsNonContracting := [1]
  lhsBatch := []
  rhsBatch := []
  wf := dot_S8x4096x128_S128x128_S8x4096x128_2_0_01_1_n_n_wf

class Facts : Prop extends Facts₀ where

variable [Facts]
-- ==== Proof.RowNetwork.lean ====
/-
  The network one row goes through, on the extended reals, and the result arrays as functions of the argument arrays.

  A row `x` of 1024 features is sent to 128 features by an affine layer, `h = x · W0 + b0`; `h` is scaled by the
  reciprocal root of its mean square plus a small constant, `h · (Σ h² / 128 + ε)^(-1/2)`; then two residual blocks
  follow, `σ(h · W1 + b1) + h` with the logistic function `σ`, and `max(h · W2 + b2, 0) + h`. Every row is treated
  alone: entry `(a, s, k)` of the result depends on row `(a, s)` of the input and on the weights, nothing else.
  The two constants are kept as the words both programs spell (128.0, and the single-precision number nearest 1e-6), so
  that neither is ever evaluated.
-/
import Idealize.ShloMosaic.PureOps.Ideal
import Idealize.ShloMosaic.Lib.ValueIdx

noncomputable section

namespace Cert.RowNet

open Idealize.ShloMosaic Idealize.ShloMosaic.ValueIdx

/-- The divisor of the mean: the word of 128.0. -/
abbrev c128 : EReal := Ideal.ofBits .f32 0x43000000#32
/-- The constant added under the root: the word of the single-precision number nearest 1e-6. -/
abbrev eps : EReal := Ideal.ofBits .f32 0x358637BD#32

/-- An affine layer at output feature `k`: `Σ j, h j · W j k + b k`. -/
def affine {n : ℕ} (h : Fin n → EReal) (W : Fin n → Fin 128 → EReal) (b : Fin 128 → EReal) (k : Fin 128) : EReal :=
  (∑ j : Fin n, h j * W j k) + b k

/-- The factor a row is scaled by: the reciprocal root of its mean square plus `eps`. -/
def rmsScale (h : Fin 128 → EReal) : EReal :=
  Ideal.rsqrt (Ideal.div (∑ k : Fin 128, h k * h k) c128 + eps)

/-- The row scaled to unit mean square. -/
def normed (h : Fin 128 → EReal) (k : Fin 128) : EReal := h k * rmsScale h

/-- The logistic residual block: `σ(h · W + b) + h`. -/
def sigmoidBlock (h : Fin 128 → EReal) (W : Fin 128 → Fin 128 → EReal) (b : Fin 128 → EReal) (k : Fin 128) : EReal :=
  Ideal.logistic (affine h W b k) + h k

/-- The rectifier residual block: `max(h · W + b, 0) + h`. -/
def reluBlock (h : Fin 128 → EReal) (W : Fin 128 → Fin 128 → EReal) (b : Fin 128 → EReal) (k : Fin 128) : EReal :=
  max (affine h W b k) 0 + h k

/-- The whole network on one row. -/
def row (x : Fin 1024 → EReal) (W0 : Fin 1024 → Fin 128 → EReal) (b0 : Fin 128 → EReal)
    (W1 : Fin 128 → Fin 128 → EReal) (b1 : Fin 128 → EReal) (W2 : Fin 128 → Fin 128 → EReal) (b2 : Fin 128 → EReal) :
    Fin 128 → EReal :=
  reluBlock (sigmoidBlock (normed (affine x W0 b0)) W1 b1) W2 b2

/-- The network depends on its row and weights entry by entry. -/
theorem row_congr {x x' : Fin 1024 → EReal} {W0 W0' : Fin 1024 → Fin 128 → EReal} {b0 b0' : Fin 128 → EReal}
    {W1 W1' : Fin 128 → Fin 128 → EReal} {b1 b1' : Fin 128 → EReal} {W2 W2' : Fin 128 → Fin 128 → EReal}
    {b2 b2' : Fin 128 → EReal} {k k' : Fin 128}
    (hx : ∀ d, x d = x' d) (hW0 : ∀ d j, W0 d j = W0' d j) (hb0 : ∀ j, b0 j = b0' j)
    (hW1 : ∀ i j, W1 i j = W1' i j) (hb1 : ∀ j, b1 j = b1' j) (hW2 : ∀ i j, W2 i j = W2' i j) (hb2 : ∀ j, b2 j = b2' j)
    (hk : k = k') : row x W0 b0 W1 b1 W2 b2 k = row x' W0' b0' W1' b1' W2' b2' k' := by
  obtain rfl : x = x' := funext hx
  obtain rfl : W0 = W0' := funext fun d => funext (hW0 d)
  obtain rfl : b0 = b0' := funext hb0
  obtain rfl : W1 = W1' := funext fun i => funext (hW1 i)
  obtain rfl : b1 = b1' := funext hb1
  obtain rfl : W2 = W2' := funext fun i => funext (hW2 i)
  obtain rfl : b2 = b2' := funext hb2
  rw [hk]

/-- A matrix array as a function of its two coordinates. -/
def mat {n : ℕ} (W : (⟨2, ![n, 128]⟩ : Shape).Idx → EReal) : Fin n → Fin 128 → EReal := fun j k => W (ix2 j k)
/-- A vector array as a function of its coordinate. -/
def vec (b : (⟨1, ![128]⟩ : Shape).Idx → EReal) : Fin 128 → EReal := fun k => b (ix1 k)
/-- A one-row matrix array as a function of its column. -/
def rowVec (b : (⟨2, ![1, 128]⟩ : Shape).Idx → EReal) : Fin 128 → EReal := fun k => b (ix2 (0 : Fin 1) k)

/-- THE RESULT, for the input as eight groups of 4096 rows: entry `(a, s, k)` is the network on row `(a, s)`, at `k`. -/
def onGroups (x : (⟨3, ![8, 4096, 1024]⟩ : Shape).Idx → EReal) (W0 : (⟨2, ![1024, 128]⟩ : Shape).Idx → EReal)
    (b0 : (⟨1, ![128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨3, ![8, 4096, 128]⟩ : Shape).Idx → EReal := fun i =>
  row (fun d => x (ix3 (⟨(i 0).val, (i 0).isLt⟩ : Fin 8) (⟨(i 1).val, (i 1).isLt⟩ : Fin 4096) d))
    (mat W0) (vec b0) (mat W1) (vec b1) (mat W2) (vec b2) (⟨(i 2).val, (i 2).isLt⟩ : Fin 128)

theorem onGroups_apply (x : (⟨3, ![8, 4096, 1024]⟩ : Shape).Idx → EReal) (W0 : (⟨2, ![1024, 128]⟩ : Shape).Idx → EReal)
    (b0 : (⟨1, ![128]⟩ : Shape).Idx → EReal) (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) (a : Fin 8) (s : Fin 4096) (k : Fin 128) :
    onGroups x W0 b0 W1 b1 W2 b2 (ix3 a s k)
      = row (fun d => x (ix3 a s d)) (mat W0) (vec b0) (mat W1) (vec b1) (mat W2) (vec b2) k := rfl

/-- THE SAME for the input as one matrix of 32768 rows, the biases as one-row matrices: entry `(r, k)` is the network on
    row `r`, at `k`. -/
def onRows (X : (⟨2, ![32768, 1024]⟩ : Shape).Idx → EReal) (W0 : (⟨2, ![1024, 128]⟩ : Shape).Idx → EReal)
    (B0 : (⟨2, ![1, 128]⟩ : Shape).Idx → EReal) (W1 : (⟨2, ![128, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal) :
    (⟨2, ![32768, 128]⟩ : Shape).Idx → EReal := fun j =>
  row (fun d => X (ix2 (⟨(j 0).val, (j 0).isLt⟩ : Fin 32768) d))
    (mat W0) (rowVec B0) (mat W1) (rowVec B1) (mat W2) (rowVec B2) (⟨(j 1).val, (j 1).isLt⟩ : Fin 128)

theorem onRows_apply (X : (⟨2, ![32768, 1024]⟩ : Shape).Idx → EReal) (W0 : (⟨2, ![1024, 128]⟩ : Shape).Idx → EReal)
    (B0 : (⟨2, ![1, 128]⟩ : Shape).Idx → EReal) (W1 : (⟨2, ![128, 128]⟩ : Shape).Idx → EReal) (B1 : (⟨2, ![1, 128]⟩ : Shape).Idx → EReal)
    (W2 : (⟨2, ![128, 128]⟩ : Shape).Idx → EReal) (B2 : (⟨2, ![1, 128]⟩ : Shape).Idx → EReal) (r : Fin 32768) (k : Fin 128) :
    onRows X W0 B0 W1 B1 W2 B2 (ix2 r k)
      = row (fun d => X (ix2 r d)) (mat W0) (rowVec B0) (mat W1) (rowVec B1) (mat W2) (rowVec B2) k := rfl

end Cert.RowNet

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.LibUnitAxes.lean ====
/-
  Unit axes added and dropped: general layout lemmas, in the style of the library's leading-unit-axis forms.
  A block of a rank-4 array is `[1, 1, a, b]`; viewed as the matrix `[a, b]` its entry `(p, c)` is the block's
  entry `(0, 0, p, c)`. A vector `[a]` kept as a column `[a, 1]` has, at `(p, 0)`, the vector's entry `p`.
  Both are the same row-major position on the two sides.
-/
import Idealize.ShloMosaic.Lib.Pipeline.Value
import Idealize.ShloMosaic.Lib.ValueIdx

namespace Cert.Layout

open Idealize.ShloMosaic Idealize.ShloMosaic.ValueIdx

/-- A `[1, 1, a, b]` block viewed as the matrix `[a, b]` reads, at `(p, c)`, the block's entry `(0, 0, p, c)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) := by
  refine shapeCast_apply x h (ix2 p c) (ix4 (0 : Fin 1) (0 : Fin 1) p c) ?_
  rw [Shape.rowMajor_val_four, Shape.rowMajor_val_two]
  show ((0 * 1 + 0) * a + p.val) * b + c.val = p.val * b + c.val
  simp

/-- A vector `[a]` kept as a column `[a, 1]` reads, at `(p, 0)`, the vector's entry `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) := by
  refine shapeCast_apply x h (ix2 p (0 : Fin 1)) (ix1 p) ?_
  rw [Shape.rowMajor_val_one, Shape.rowMajor_val_two]
  show p.val = p.val * 1 + 0
  simp

end Cert.Layout
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.KernelRow.lean ====
/-
  The kernel's body on one block of 2048 rows, read entry by entry at the exact extended reals.

  The body's arithmetic is one pure term of the seven loaded blocks. It is cut here into its four stages — the affine
  layer, the scaling by the reciprocal root mean square, the logistic residual block, the rectifier residual block —
  and each stage is read at entry `(p, q)` of the block: a matrix product into a zero accumulator is the plain sum over
  the contracted coordinate; a bias kept as one row is repeated down the rows; the lane sum of squares of row `p`, kept
  as a column and repeated along the lanes, is the same number at every `q`. Entry `(p, q)` of the body's result is then
  the row network (Proof/RowNetwork.lean) on row `p` of the input block, at feature `q`: rows do not mix.
-/
import proofs.«177063_j64132451664296_2_alg».proof.Proof.Gen.KernelIdeal.Skeleton
import proofs.«177063_j64132451664296_2_alg».proof.Proof.RowNetwork
import proofs.«177063_j64132451664296_2_alg».proof.Proof.LibColumnBroadcast
import proofs.«177063_j64132451664296_2_alg».proof.Proof.LibUnitAxes
import proofs.«177063_j64132451664296_2_alg».proof.Proof.LibRank3Layout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.RowNet

/-! ## The two matrix products read at an entry -/

theorem lhsA_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhsA_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhsA_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhsA_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The product of a `[2048, 1024]` block with the `[1024, 128]` weights into a zero accumulator: at `(p, q)` the sum over
    `k` of `x (p, k) · w (k, q)`. -/
theorem matmulA_apply (x : FVec Ideal S2048x1024 .f32) (w : FVec Ideal S1024x128 .f32) (p : Fin 2048) (q : Fin 128) :
    matmul dot_S2048x1024_S1024x128_S2048x128_1_0_0_1_n_n (some .fp32) x w (constant (F := Ideal) S2048x128 .f32 0x00000000#32) (ix2 p q)
      = ∑ k : Fin 1024, x (ix2 p k) * w (ix2 k q) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p q) ((ValueIdx.contrEquiv1 dot_S2048x1024_S1024x128_S2048x128_1_0_0_1_n_n 1024 rfl rfl).symm k) = ix2 p k := funext fun a => Fin.ext (by
    match a with
    | ⟨0, _⟩ => exact lhsA_0 _ _
    | ⟨1, _⟩ => exact (lhsA_1 _ _).trans hk)
  have er : dot_S2048x1024_S1024x128_S2048x128_1_0_0_1_n_n.rhsIdx (ix2 p q) ((ValueIdx.contrEquiv1 dot_S2048x1024_S1024x128_S2048x128_1_0_0_1_n_n 1024 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2048x128.Idx) (q : dot_S2048x128_S128x128_S2048x128_1_0_0_1_n_n.contr.Idx) :
    (dot_S2048x128_S128x128_S2048x128_1_0_0_1_n_n.lhsIdx i q 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
theorem lhsB_1 (i : S2048x128.Idx) (q : dot_S2048x128_S128x128_S2048x128_1_0_0_1_n_n.contr.Idx) :
    (dot_S2048x128_S128x128_S2048x128_1_0_0_1_n_n.lhsIdx i q 1).val = (q ⟨0, by decide⟩).val :=
  dot_S2048x128_S128x128_S2048x128_1_0_0_1_n_n.lhsIdx_val_of_single rfl i q
theorem rhsB_0 (i : S2048x128.Idx) (q : dot_S2048x128_S128x128_S2048x128_1_0_0_1_n_n.contr.Idx) :
    (dot_S2048x128_S128x128_S2048x128_1_0_0_1_n_n.rhsIdx i q 0).val = (q ⟨0, by decide⟩).val :=
  dot_S2048x128_S128x128_S2048x128_1_0_0_1_n_n.rhsIdx_val_of_single rfl i q
theorem rhsB_1 (i : S2048x128.Idx) (q : dot_S2048x128_S128x128_S2048x128_1_0_0_1_n_n.contr.Idx) :
    (dot_S2048x128_S128x128_S2048x128_1_0_0_1_n_n.rhsIdx i q 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The product of a `[2048, 128]` block with `[128, 128]` weights into a zero accumulator: at `(p, q)` the sum over `k` of
    `h (p, k) · w (k, q)`. -/
theorem matmulB_apply (h : FVec Ideal S2048x128 .f32) (w : FVec Ideal S128x128 .f32) (p : Fin 2048) (q : Fin 128) :
    matmul dot_S2048x128_S128x128_S2048x128_1_0_0_1_n_n (some .fp32) h w (constant (F := Ideal) S2048x128 .f32 0x00000000#32) (ix2 p q)
      = ∑ k : Fin 128, h (ix2 p k) * w (ix2 k q) := by
  simp only [matmul]
  rw [Ideal.matmul_constant_zero_apply, ← Equiv.sum_comp (ValueIdx.contrEquiv1 dot_S2048x128_S128x128_S2048x128_1_0_0_1_n_n 128 rfl rfl).symm]
  refine Finset.sum_congr rfl fun k _ => ?_
  have hk := ValueIdx.contrEquiv1_symm_val dot_S2048x128_S128x128_S2048x128_1_0_0_1_n_n 128 rfl rfl k
  have el : dot_S2048x128_S128x128_S2048x128_1_0_0_1_n_n.lhsIdx (ix2 p q) ((ValueIdx.contrEquiv1 dot_S2048x128_S128x128_S2048x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S2048x128_S128x128_S2048x128_1_0_0_1_n_n.rhsIdx (ix2 p q) ((ValueIdx.contrEquiv1 dot_S2048x128_S128x128_S2048x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-- The lane sum of a `[2048, 128]` block, as the body spells it: at row `p` the sum over the lanes of row `p`. -/
theorem laneSum_apply (v : FVec Ideal S2048x128 .f32) (p : Fin 2048) :
    multiReduction .add [1] S2048 v 0x00000000#32 reduces_S2048x128_S2048 (.inl rfl) rfl (ix1 p) = ∑ k : Fin 128, v (ix2 p k) :=
  Cert.LibRank3.sum_row_apply v 0x00000000#32 reduces_S2048x128_S2048 (.inl rfl) rfl p

/-! ## The body's four stages -/

/-- The affine layer on the input block: the product with the weights plus the bias row repeated down the rows. -/
def lin0 (v0 : FVec Ideal S2048x1024 .f32) (v2 : FVec Ideal S1024x128 .f32) (v3 : FVec Ideal S1x128 .f32) : FVec Ideal S2048x128 .f32 :=
  addf (matmul dot_S2048x1024_S1024x128_S2048x128_1_0_0_1_n_n (some .fp32) (shapeCast S2048x1024 v0 shapeCasts_S2048x1024_S2048x1024) v2 (constant (F := Ideal) S2048x128 .f32 0x00000000#32))
    (broadcastTo S2048x128 (shapeCast S1x128 v3 shapeCasts_S1x128_S1x128) broadcasts_S1x128_S2048x128)

/-- Each row scaled by the reciprocal root of its mean square plus the small constant. -/
def rms (v7 : FVec Ideal S2048x128 .f32) : FVec Ideal S2048x128 .f32 :=
  mulf v7 (broadcastTo S2048x128 (rsqrt (addf (divf (shapeCast S2048x1 (multiReduction .add [1] S2048 (mulf v7 v7) 0x00000000#32 reduces_S2048x128_S2048 (.inl rfl) rfl) shapeCasts_S2048_S2048x1) (broadcast S2048x1 (Scalar.ofBits (F := Ideal) .f32 0x43000000#32))) (broadcast S2048x1 (Scalar.ofBits (F := Ideal) .f32 0x358637BD#32)))) broadcasts_S2048x1_S2048x128)

/-- An affine layer on a `[2048, 128]` block. -/
def lin1 (h : FVec Ideal S2048x128 .f32) (w : FVec Ideal S128x128 .f32) (b : FVec Ideal S1x128 .f32) : FVec Ideal S2048x128 .f32 :=
  addf (matmul dot_S2048x128_S128x128_S2048x128_1_0_0_1_n_n (some .fp32) h w (constant (F := Ideal) S2048x128 .f32 0x00000000#32))
    (broadcastTo S2048x128 (shapeCast S1x128 b shapeCasts_S1x128_S1x128) broadcasts_S1x128_S2048x128)

/-- The logistic residual block. -/
def sigm (h : FVec Ideal S2048x128 .f32) (w : FVec Ideal S128x128 .f32) (b : FVec Ideal S1x128 .f32) : FVec Ideal S2048x128 .f32 :=
  addf (logistic (lin1 h w b)) h

/-- The rectifier residual block. -/
def relu (h : FVec Ideal S2048x128 .f32) (w : FVec Ideal S128x128 .f32) (b : FVec Ideal S1x128 .f32) : FVec Ideal S2048x128 .f32 :=
  addf (maximumf (lin1 h w b) (broadcast S2048x128 (Scalar.ofBits (F := Ideal) .f32 0x00000000#32))) h

/-- The body's payload is the four stages in turn. -/
theorem pay_eq (v0 : Vec Ideal S2048x1024 .f32) (v2 : Vec Ideal S1024x128 .f32) (v3 : Vec Ideal S1x128 .f32) (v18 : Vec Ideal S128x128 .f32)
    (v19 : Vec Ideal S1x128 .f32) (v26 : Vec Ideal S128x128 .f32) (v27 : Vec Ideal S1x128 .f32) :
    k0_pay1 (F := Ideal) v0 v2 v3 v18 v19 v26 v27 = relu (sigm (rms (lin0 v0 v2 v3)) v18 v19) v26 v27 := rfl

/-! ## Each stage at entry `(p, q)` -/

theorem lin0_apply (v0 : FVec Ideal S2048x1024 .f32) (v2 : FVec Ideal S1024x128 .f32) (v3 : FVec Ideal S1x128 .f32) (p : Fin 2048) (q : Fin 128) :
    lin0 v0 v2 v3 (ix2 p q) = affine (fun d => v0 (ix2 p d)) (mat (n := 1024) v2) (rowVec v3) q := by
  show addf _ _ (ix2 p q) = (∑ k : Fin 1024, v0 (ix2 p k) * v2 (ix2 k q)) + v3 (ix2 (0 : Fin 1) q)
  rw [addf_apply, matmulA_apply, broadcastTo_1b_ab_apply, shapeCast_self, shapeCast_self]

theorem lin1_apply (h : FVec Ideal S2048x128 .f32) (w : FVec Ideal S128x128 .f32) (b : FVec Ideal S1x128 .f32) (p : Fin 2048) (q : Fin 128) :
    lin1 h w b (ix2 p q) = affine (fun k => h (ix2 p k)) (mat (n := 128) w) (rowVec b) q := by
  show addf _ _ (ix2 p q) = (∑ k : Fin 128, h (ix2 p k) * w (ix2 k q)) + b (ix2 (0 : Fin 1) q)
  rw [addf_apply, matmulB_apply, broadcastTo_1b_ab_apply, shapeCast_self]

theorem rms_apply (h : FVec Ideal S2048x128 .f32) (p : Fin 2048) (q : Fin 128) :
    rms h (ix2 p q) = normed (fun k => h (ix2 p k)) q := by
  show mulf h (broadcastTo S2048x128 _ broadcasts_S2048x1_S2048x128) (ix2 p q)
    = h (ix2 p q) * Ideal.rsqrt (Ideal.div (∑ k : Fin 128, h (ix2 p k) * h (ix2 p k)) c128 + eps)
  rw [mulf_apply, Cert.Layout.broadcastTo_a1_ab_apply]
  refine congrArg (h (ix2 p q) * ·) ?_
  show Ideal.rsqrt (Ideal.div (shapeCast S2048x1 (multiReduction .add [1] S2048 (mulf h h) 0x00000000#32 reduces_S2048x128_S2048 (.inl rfl) rfl) shapeCasts_S2048_S2048x1 (ix2 p (0 : Fin 1))) c128 + eps) = _
  rw [Cert.Layout.shapeCast_a_a1_apply, laneSum_apply]
  rfl

theorem sigm_apply (h : FVec Ideal S2048x128 .f32) (w : FVec Ideal S128x128 .f32) (b : FVec Ideal S1x128 .f32) (p : Fin 2048) (q : Fin 128) :
    sigm h w b (ix2 p q) = sigmoidBlock (fun k => h (ix2 p k)) (mat (n := 128) w) (rowVec b) q := by
  show Ideal.logistic (lin1 h w b (ix2 p q)) + h (ix2 p q) = _
  rw [lin1_apply]
  rfl

theorem relu_apply (h : FVec Ideal S2048x128 .f32) (w : FVec Ideal S128x128 .f32) (b : FVec Ideal S1x128 .f32) (p : Fin 2048) (q : Fin 128) :
    relu h w b (ix2 p q) = reluBlock (fun k => h (ix2 p k)) (mat (n := 128) w) (rowVec b) q := by
  show max (lin1 h w b (ix2 p q)) (Ideal.ofBits .f32 0x00000000#32) + h (ix2 p q) = _
  rw [lin1_apply, Ideal.ofBits_zero_f32]
  rfl

/-- ENTRY `(p, q)` OF THE BODY'S RESULT is the row network on row `p` of the input block, at feature `q`. -/
theorem pay_point (x0 : Vec Ideal S2048x1024 .f32) (x1 : Vec Ideal S1024x128 .f32) (x2 : Vec Ideal S1x128 .f32) (x3 : Vec Ideal S128x128 .f32)
    (x4 : Vec Ideal S1x128 .f32) (x5 : Vec Ideal S128x128 .f32) (x6 : Vec Ideal S1x128 .f32) (p : Fin 2048) (q : Fin 128) :
    k0_pay1 (F := Ideal) x0 x1 x2 x3 x4 x5 x6 (ix2 p q)
      = row (fun d => x0 (ix2 p d)) (mat (n := 1024) x1) (rowVec x2) (mat (n := 128) x3) (rowVec x4) (mat (n := 128) x5) (rowVec x6) q := by
  rw [pay_eq, relu_apply]
  simp only [sigm_apply, rms_apply, lin0_apply]
  rfl

end Cert.KernelIdeal.Body

end
-- ==== Proof.KernelArray.lean ====
/-
  From the blocks to the array: what the kernel's region leaves in its result array.

  The grid has 16 points; point `t` reads rows `2048 t … 2048 t + 2047` of the input matrix and the whole of every
  weight and bias array, and writes back rows `2048 t … 2048 t + 2047` of the result. Entry `(p, q)` of what point `t`
  writes is the row network on row `p` of its input block (Proof/KernelRow.lean), which is row `2048 t + p` of the
  input matrix: the block of ONE function of the arrays as the region finds them, the row network applied row by row.
  The sixteen blocks tile the result array (row `r` lies in the block of point `r / 2048`), so the array ends holding
  that function everywhere.
-/
import proofs.«177063_j64132451664296_2_alg».proof.Proof.Gen.KernelIdeal.Frame
import proofs.«177063_j64132451664296_2_alg».proof.Proof.KernelRow
import Idealize.ShloMosaic.Lib.Pipeline.Value

noncomputable section

namespace Cert.KernelIdeal.Arr

open Cert.KernelIdeal Cert.KernelIdeal.Gen Idealize.ShloMosaic Idealize.ShloMosaic.TcCoe Idealize.SL.Sem
open Idealize.ShloMosaic.ValueIdx Cert.RowNet
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at point `t`, decided over the 16 points: the input matrix's and the result's block
    is block `t` along the rows; every weight and bias array is one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 ∧ t.val < 16 :=
  (by decide +kernel : ∀ t : Fin grid0.N, _)

/-- THE REGION'S RESULT ARRAY, as one function of the arrays the region finds: the row network on every row of the
    input matrix. -/
def regionResult (c : Dev nD) : S32768x128.Idx → EReal :=
  onRows (V m c main_v0) (V m c main_arg1) (V m c main_v1) (V m c main_arg3) (V m c main_v2) (V m c main_arg5) (V m c main_v3)

/-! ## The input blocks at a point -/

/-- Entry `(p, d)` of the input matrix's block at point `t` is entry `(2048 t + p, d)` of the matrix. -/
theorem input_block (c : Dev nD) (t : Fin cfg0.N) (p : Fin 2048) (d : Fin 1024) (r : Fin 32768) (hr : r.val = t.val * 2048 + p.val) :
    (iblk m c 0 t : Vec Ideal S2048x1024 .f32) (ix2 p d) = (V m c main_v0 : S32768x1024.Idx → EReal) (ix2 r d) := by
  obtain ⟨e0, e1, -⟩ := block_index t
  show V m c main_v0 (((cfg0.win 0).blk t).view.emb (ix2 p d)) = V m c main_v0 (ix2 r d)
  have h : ((cfg0.win 0).blk t).view.emb (ix2 p d) = ix2 r d := by
    funext a; apply Fin.ext
    match a with
    | ⟨0, _⟩ => show win0_0.index t (0 : Fin 2) * 2048 + 1 * p.val = r.val; rw [e0, hr]; omega
    | ⟨1, _⟩ => show win0_0.index t (1 : Fin 2) * 1024 + 1 * d.val = d.val; rw [e1]; omega
  rw [h]

/-- The first weights' block is the whole array. -/
theorem weights0_block (c : Dev nD) (t : Fin cfg0.N) (j : Fin 1024) (k : Fin 128) :
    (iblk m c 1 t : Vec Ideal S1024x128 .f32) (ix2 j k) = (V m c main_arg1 : S1024x128.Idx → EReal) (ix2 j k) := by
  obtain ⟨-, -, e0, e1, -⟩ := block_index t
  show V m c main_arg1 (((cfg0.win 1).blk t).view.emb (ix2 j k)) = V m c main_arg1 (ix2 j k)
  have h : ((cfg0.win 1).blk t).view.emb (ix2 j k) = ix2 j k := by
    funext a; apply Fin.ext
    match a with
    | ⟨0, _⟩ => show win0_1.index t (0 : Fin 2) * 1024 + 1 * j.val = j.val; rw [e0]; omega
    | ⟨1, _⟩ => show win0_1.index t (1 : Fin 2) * 128 + 1 * k.val = k.val; rw [e1]; omega
  rw [h]

/-- The first bias row's block is the whole array. -/
theorem bias0_block (c : Dev nD) (t : Fin cfg0.N) (k : Fin 128) :
    (iblk m c 2 t : Vec Ideal S1x128 .f32) (ix2 (0 : Fin 1) k) = (V m c main_v1 : S1x128.Idx → EReal) (ix2 (0 : Fin 1) k) := by
  obtain ⟨-, -, -, -, e0, e1, -⟩ := block_index t
  show V m c main_v1 (((cfg0.win 2).blk t).view.emb (ix2 (0 : Fin 1) k)) = V m c main_v1 (ix2 (0 : Fin 1) k)
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; rw [e0]
    | ⟨1, _⟩ => show win0_2.index t (1 : Fin 2) * 128 + 1 * k.val = k.val; rw [e1]; omega
  rw [h]

/-- The second weights' block is the whole array. -/
theorem weights1_block (c : Dev nD) (t : Fin cfg0.N) (j : Fin 128) (k : Fin 128) :
    (iblk m c 3 t : Vec Ideal S128x128 .f32) (ix2 j k) = (V m c main_arg3 : S128x128.Idx → EReal) (ix2 j k) := by
  obtain ⟨-, -, -, -, -, -, e0, e1, -⟩ := block_index t
  show V m c main_arg3 (((cfg0.win 3).blk t).view.emb (ix2 j k)) = V m c main_arg3 (ix2 j k)
  have h : ((cfg0.win 3).blk t).view.emb (ix2 j k) = ix2 j k := by
    funext a; apply Fin.ext
    match a with
    | ⟨0, _⟩ => show win0_3.index t (0 : Fin 2) * 128 + 1 * j.val = j.val; rw [e0]; omega
    | ⟨1, _⟩ => show win0_3.index t (1 : Fin 2) * 128 + 1 * k.val = k.val; rw [e1]; omega
  rw [h]

/-- The second bias row's block is the whole array. -/
theorem bias1_block (c : Dev nD) (t : Fin cfg0.N) (k : Fin 128) :
    (iblk m c 4 t : Vec Ideal S1x128 .f32) (ix2 (0 : Fin 1) k) = (V m c main_v2 : S1x128.Idx → EReal) (ix2 (0 : Fin 1) k) := by
  obtain ⟨-, -, -, -, -, -, -, -, e0, e1, -⟩ := block_index t
  show V m c main_v2 (((cfg0.win 4).blk t).view.emb (ix2 (0 : Fin 1) k)) = V m c main_v2 (ix2 (0 : Fin 1) k)
  have h : ((cfg0.win 4).blk t).view.emb (ix2 (0 : Fin 1) k) = ix2 (0 : Fin 1) k := by
    funext a; apply Fin.ext
    match a with
    | ⟨0, _⟩ => show win0_4.index t (0 : Fin 2) * 1 + 1 * 0 = 0; rw [e0]
    | ⟨1, _⟩ => show win0_4.index t (1 : Fin 2) * 128 + 1 * k.val = k.val; rw [e1]; omega
  rw [h]

/-- The third weights' block is the whole array. -/
theorem weights2_block (c : Dev nD) (t : Fin cfg0.N) (j : Fin 128) (k : Fin 128) :
    (iblk m c 5 t : Vec Ideal S128x128 .f32) (ix2 j k) = (V m c main_arg5 : S128x128.Idx → EReal) (ix2 j k) := by
  obtain ⟨-, -, -, -, -, -, -, -, -, -, e0, e1, -⟩ := block_index t
  show V m c main_arg5 (((cfg0.win 5).blk t).view.emb (ix2 j k)) = V m c main_arg5 (ix2 j k)
  have h : ((cfg0.win 5).blk t).view.emb (ix2 j k) = ix2 j k := by
    funext a; apply Fin.ext
    match a with
    | ⟨0, _⟩ => show win0_5.index t (0 : Fin 2) * 128 + 1 * j.val = j.val; rw [e0]; omega
    | ⟨1, _⟩ => show win0_5.index t (1 : Fin 2) * 128 + 1 * k.val = k.val; rw [e1]; omega
  rw [h]

/-- The third bias row's block is the whole array. -/
theorem bias2_block (c : Dev nD) (t : Fin cfg0.N) (k : Fin 128) :
    (iblk m c 6 t : Vec Ideal S1x128 .f32) (ix2 (0 : Fin 1) k) = (V m c main_v3 : S1x128.Idx → EReal) (ix2 (0 : Fin 1) k) := by
  obtain ⟨-, -, -, -, -, -, -, -, -, -, -, -, e0, e1, -⟩ := block_index t
  show V m c main_v3 (((cfg0.win 6).blk t).view.emb (ix2 (0 : Fin 1) k)) = V m c main_v3 (ix2 (0 : Fin 1) k)
  have h : ((cfg0.win 6).blk t).view.emb (ix2 (0 : Fin 1) k) = ix2 (0 : Fin 1) k := by
    funext a; apply Fin.ext
    match a with
    | ⟨0, _⟩ => show win0_6.index t (0 : Fin 2) * 1 + 1 * 0 = 0; rw [e0]
    | ⟨1, _⟩ => show win0_6.index t (1 : Fin 2) * 128 + 1 * k.val = k.val; rw [e1]; omega
  rw [h]

/-! ## What a point writes back, and the whole array -/

/-- WHAT POINT `t` WRITES BACK is block `t` of the region's result function. -/
theorem flushed_eq (c : Dev nD) (t : Fin cfg0.N) :
    (dats m 0 c).flushed 7 t = ((cfg0.win 7).blk t).view.read (Elt Ideal) (regionResult m c) := by
  obtain ⟨-, -, -, -, -, -, -, -, -, -, -, -, -, -, e0, e1, ht⟩ := block_index t
  show (cfg0.win 7).cut (grid0.coords t) ((dats m 0 c).after 7 t) = _
  rw [after0_7]
  unfold out0_7
  rw [View.canon_unit_zero zero_offsets]
  simp only [View.ld_unit_zero (S := S2048x1024) zero_offsets, View.ld_unit_zero (S := S1024x128) zero_offsets,
    View.ld_unit_zero (S := S1x128) zero_offsets, View.ld_unit_zero (S := S128x128) zero_offsets]
  refine funext fun (y : S2048x128.Idx) => ?_
  obtain ⟨p, q, rfl⟩ : ∃ (p : Fin 2048) (q : Fin 128), y = ix2 p q := ⟨y 0, y 1, eq_ix2 y⟩
  have hr : t.val * 2048 + p.val < 32768 := by have := p.isLt; omega
  have h7 : ((cfg0.win 7).blk t).view.emb (ix2 p q) = ix2 (⟨t.val * 2048 + p.val, hr⟩ : Fin 32768) q := by
    funext a; apply Fin.ext
    match a with
    | ⟨0, _⟩ => show win0_7.index t (0 : Fin 2) * 2048 + 1 * p.val = t.val * 2048 + p.val; rw [e0]; omega
    | ⟨1, _⟩ => show win0_7.index t (1 : Fin 2) * 128 + 1 * q.val = q.val; rw [e1]; omega
  show k0_pay1 (F := Ideal) (iblk m c 0 t) (iblk m c 1 t) (iblk m c 2 t) (iblk m c 3 t) (iblk m c 4 t) (iblk m c 5 t) (iblk m c 6 t) (ix2 p q)
    = regionResult m c (((cfg0.win 7).blk t).view.emb (ix2 p q))
  rw [h7]
  refine (Body.pay_point (iblk m c 0 t) (iblk m c 1 t) (iblk m c 2 t) (iblk m c 3 t) (iblk m c 4 t) (iblk m c 5 t) (iblk m c 6 t) p q).trans ?_
  unfold regionResult
  rw [onRows_apply]
  exact row_congr (fun d => input_block m c t p d _ rfl) (fun j k => weights0_block m c t j k) (fun k => bias0_block m c t k)
    (fun j k => weights1_block m c t j k) (fun k => bias1_block m c t k) (fun j k => weights2_block m c t j k)
    (fun k => bias2_block m c t k) rfl

/-- An index of the result array is in point `t`'s block iff each coordinate is in the block's range on its axis. -/
theorem mem_block (t : Fin cfg0.N) (i : S32768x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v4).slice (win0_7.rect t)).set ↔ _
  rw [View.set_slice_whole, Rect.mem_set_unit]
  exact Iff.rfl

/-- Every index of the result array is in the block of the point `row / 2048`. -/
theorem covered (i : S32768x128.Idx) : ∃ t : Fin cfg0.N, (cfg0.win 7).flush t = true ∧ i ∈ ((cfg0.win 7).blk t).view.set := by
  have hi0 : (i 0).val < 32768 := (i 0).isLt
  have hi1 : (i 1).val < 128 := (i 1).isLt
  have hN : cfg0.N = 16 := N_0
  let t : Fin cfg0.N := ⟨(i 0).val / 2048, by rw [hN]; omega⟩
  have htv : t.val = (i 0).val / 2048 := rfl
  obtain ⟨-, -, -, -, -, -, -, -, -, -, -, -, -, -, e0, e1, -⟩ := block_index t
  refine ⟨t, flush0_7 t, ?_⟩
  rw [mem_block]
  intro a
  match a with
  | ⟨0, _⟩ => show win0_7.index t (0 : Fin 2) * 2048 ≤ (i 0).val ∧ (i 0).val < win0_7.index t (0 : Fin 2) * 2048 + 2048; rw [e0, htv]; omega
  | ⟨1, _⟩ => show win0_7.index t (1 : Fin 2) * 128 ≤ (i 1).val ∧ (i 1).val < win0_7.index t (1 : Fin 2) * 128 + 128; rw [e1]; omega

/-- THE RESULT ARRAY AFTER THE REGION is the region's result function. -/
theorem final (c : Dev nD) : (dats m 0 c).arrAt 7 cfg0.N = regionResult m c :=
  (dats m 0 c).arrAt_eq_of_cover 7 (regionResult m c) (fun t _ => flushed_eq m c t) (covered)

end Cert.KernelIdeal.Arr

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.KernelRun.lean ====
/-
  The kernel's program end to end: the host reshapes around the region, and the run.

  Before the region the host views the input's eight groups of 4096 rows as one matrix of 32768 rows (row
  `4096 a + s` is row `s` of group `a`) and each bias vector as a one-row matrix; after it, the result matrix's rows are
  viewed again as eight groups of 4096. The row network treats every row alone, so the result at `(a, s, k)` is the
  network on row `(a, s)` of the input, at feature `k`: one function of the argument arrays (Proof/RowNetwork.lean's
  `onGroups`). The run is the generated frame run with that function named as the result.
-/
import proofs.«177063_j64132451664296_2_alg».proof.Proof.Gen.KernelIdeal.Frame
import proofs.«177063_j64132451664296_2_alg».proof.Proof.KernelArray
import proofs.«177063_j64132451664296_2_alg».proof.Proof.LibGroupsToRows
import proofs.«177063_j64132451664296_2_alg».proof.Proof.LibRank3Layout
import Idealize.ShloMosaic.Lib.StableHlo.Run
import Idealize.ShloMosaic.Lib.ValueLayout
import Idealize.ShloMosaic.Lib.Pipeline.Value

noncomputable section

namespace Cert.KernelIdeal.Run

open Cert.KernelIdeal Cert.KernelIdeal.Gen Idealize.ShloMosaic Idealize.ShloMosaic.TcCoe Idealize.SL.Sem
open Idealize.ShloMosaic.ValueIdx Idealize.ShloMosaic.StableHlo Cert.RowNet
open Idealize.ShloMosaic.Pipeline (Dat)

variable (m : (ℓ : Loc nD τ sig) → Buf (Elt Ideal) ℓ) (ρ : Dev nD → PrngReg)

/-! ## The arrays the region finds -/

/-- The input matrix the region finds is the input's groups viewed as rows. -/
theorem entry_rows (c : Dev nD) : (V m c main_v0 : S32768x1024.Idx → EReal)
    = shapeCast S32768x1024 (m ((c.tc : Thread nD τ).loc main_arg0)) shapeCasts_S8x4096x1024_S32768x1024 := by
  show StableHlo.after hostOps0 (fun b => m (c, b)) (Proc.devRef .tc main_v0) = _
  after_results <;> rfl

/-- The first bias row the region finds is the first bias vector viewed as one row. -/
theorem entry_bias0 (c : Dev nD) : (V m c main_v1 : S1x128.Idx → EReal)
    = shapeCast S1x128 (m ((c.tc : Thread nD τ).loc main_arg2)) shapeCasts_S128_S1x128 := by
  show StableHlo.after hostOps0 (fun b => m (c, b)) (Proc.devRef .tc main_v1) = _
  after_results <;> rfl

/-- The second bias row likewise. -/
theorem entry_bias1 (c : Dev nD) : (V m c main_v2 : S1x128.Idx → EReal)
    = shapeCast S1x128 (m ((c.tc : Thread nD τ).loc main_arg4)) shapeCasts_S128_S1x128 := by
  show StableHlo.after hostOps0 (fun b => m (c, b)) (Proc.devRef .tc main_v2) = _
  after_results <;> rfl

/-- The third bias row likewise. -/
theorem entry_bias2 (c : Dev nD) : (V m c main_v3 : S1x128.Idx → EReal)
    = shapeCast S1x128 (m ((c.tc : Thread nD τ).loc main_arg6)) shapeCasts_S128_S1x128 := by
  show StableHlo.after hostOps0 (fun b => m (c, b)) (Proc.devRef .tc main_v3) = _
  after_results <;> rfl

/-- Row `4096 a + s` of the region's result is the row network on row `(a, s)` of the input, with the weights and biases
    as launched. -/
theorem regionResult_rows (c : Dev nD) (a : Fin 8) (s : Fin 4096) (k : Fin 128) (h : a.val * 4096 + s.val < 32768) :
    Arr.regionResult m c (ix2 (⟨a.val * 4096 + s.val, h⟩ : Fin 32768) k)
      = row (fun d => ((m ((c.tc : Thread nD τ).loc main_arg0)) : S8x4096x1024.Idx → EReal) (ix3 a s d)) (mat (n := 1024) (m ((c.tc : Thread nD τ).loc main_arg1))) (vec (m ((c.tc : Thread nD τ).loc main_arg2)))
          (mat (n := 128) (m ((c.tc : Thread nD τ).loc main_arg3))) (vec (m ((c.tc : Thread nD τ).loc main_arg4))) (mat (n := 128) (m ((c.tc : Thread nD τ).loc main_arg5))) (vec (m ((c.tc : Thread nD τ).loc main_arg6))) k := by
  unfold Arr.regionResult
  rw [onRows_apply]
  refine row_congr (fun d => ?_) (fun j k' => ?_) (fun k' => ?_) (fun j k' => ?_) (fun k' => ?_) (fun j k' => ?_) (fun k' => ?_) rfl
  · rw [entry_rows]
    exact Cert.Layout.shapeCast_groups_rows_apply _ _ a s d h
  · rw [V_main_arg1]
  · show (V m c main_v1 : S1x128.Idx → EReal) (ix2 (0 : Fin 1) k') = ((m ((c.tc : Thread nD τ).loc main_arg2)) : S128.Idx → EReal) (ix1 k')
    rw [entry_bias0]
    exact shapeCast_a_1a_apply _ _ (0 : Fin 1) k'
  · rw [V_main_arg3]
  · show (V m c main_v2 : S1x128.Idx → EReal) (ix2 (0 : Fin 1) k') = ((m ((c.tc : Thread nD τ).loc main_arg4)) : S128.Idx → EReal) (ix1 k')
    rw [entry_bias1]
    exact shapeCast_a_1a_apply _ _ (0 : Fin 1) k'
  · rw [V_main_arg5]
  · show (V m c main_v3 : S1x128.Idx → EReal) (ix2 (0 : Fin 1) k') = ((m ((c.tc : Thread nD τ).loc main_arg6)) : S128.Idx → EReal) (ix1 k')
    rw [entry_bias2]
    exact shapeCast_a_1a_apply _ _ (0 : Fin 1) k'

/-! ## The program's result -/

/-- After the region the host views the region's result matrix as eight groups of 4096 rows. -/
theorem tail_result (c : Dev nD) :
    Pipeline.afterTail₀ cfgs (dats m) 0 (V0 m) [hostOps1] c main_v5
      = shapeCast S8x4096x128 (Arr.regionResult m c) shapeCasts_S32768x128_S8x4096x128 := by
  unfold Pipeline.afterTail₀
  show StableHlo.after hostOps1 _ (Proc.devRef .tc main_v5) = _
  after_results
  exact congrArg (fun z => shapeCast S8x4096x128 z shapeCasts_S32768x128_S8x4096x128)
    ((Pipeline.withArrays_arr spec0 launch0.win.arr_inj c _ _ 7).trans (Arr.final m c))

/-- THE PROGRAM'S RESULT is the row network on every row of the input: one function of the argument arrays. -/
theorem result_eq (c : Dev nD) :
    Pipeline.afterTail₀ cfgs (dats m) 0 (V0 m) [hostOps1] c main_v5
      = onGroups (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [tail_result]
  refine funext fun (i : S8x4096x128.Idx) => ?_
  obtain ⟨a, s, k, rfl⟩ : ∃ (a : Fin 8) (s : Fin 4096) (k : Fin 128), i = ix3 a s k := ⟨i 0, i 1, i 2, eq_ix3 i⟩
  have h : a.val * 4096 + s.val < 32768 := by have := a.isLt; have := s.isLt; omega
  rw [onGroups_apply]
  exact (Cert.LibRank3.shapeCast_rows_apply (Arr.regionResult m c) shapeCasts_S32768x128_S8x4096x128 a s k h).trans
    (regionResult_rows m c a s k h)

/-- THE RUN: every weakly fair execution ends, with the result array at the row network of the arguments and the
    arguments unchanged. -/
theorem run : θ_run defs (onTc (τ := τ) (main (F := Ideal))) ⟨m, fun _ => 0, ρ⟩ fun r => ∀ c : Dev nD,
      r.2.mem ((c.tc : Thread nD τ).loc main_v5)
        = onGroups (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c)⟩)
    (run_main m ρ)

end Cert.KernelIdeal.Run

end
-- ==== Proof.Consts.lean ====
/-
  The one float constant of the two programs whose value the proof uses: the word of 1.0 denotes the extended real 1
  (the reference spells the logistic function out as 1 / (1 + e^(-x)) with that word). Stated in a module of its own,
  so that the pattern is unfolded once.
-/
import Idealize.ShloMosaic.PureOps.Ideal

noncomputable section

namespace Cert.Consts

open Idealize.ShloMosaic

/-- The single-precision word of 1.0 denotes 1. -/
theorem ofBits_one : Ideal.ofBits .f32 0x3F800000#32 = 1 := by
  simp [Ideal.ofBits, Ideal.ieee, -EReal.coe_mul]; norm_num

end Cert.Consts

end
-- ==== Proof.ReferenceRow.lean ====
/-
  The reference, read entry by entry at the exact extended reals, is the row network on each row.

  The reference's operations are read one at a time at entry `(a, s, k)` (the generated index-by-index lemmas), in four
  steps that follow its four values used more than once: the affine layer, its scaling by the reciprocal root mean
  square, the logistic block — spelt out there as 1 / (1 + e^(-x)), which is the logistic function's definition on the
  extended reals once the word 1.0 is read as 1 —, and the rectifier block. Its sum of squares starts from the word
  0.0, which is 0. Each contraction runs over the last coordinate of row `(a, s)` and the first of the weights.
-/
import proofs.«177063_j64132451664296_2_alg».proof.Proof.Gen.ReferenceIdeal.Read
import proofs.«177063_j64132451664296_2_alg».proof.Proof.RowNetwork
import proofs.«177063_j64132451664296_2_alg».proof.Proof.Consts

noncomputable section

namespace Cert.ReferenceIdeal.RefValue

open Cert.ReferenceIdeal Cert.ReferenceIdeal.Read Idealize.ShloMosaic Idealize.ShloMosaic.ValueIdx Cert.RowNet

/-! ## Where each operation reads its operands, at entry `(a, s, k)` -/

theorem lhs_first (a : Fin 8) (s : Fin 4096) (k : Fin 128) (d : Fin 1024) : lidx_main_v0 (ix3 a s k) d = ix3 a s d :=
  funext fun x => Fin.ext (by match x with | ⟨0, _⟩ => rfl | ⟨1, _⟩ => rfl | ⟨2, _⟩ => rfl)
theorem rhs_first (a : Fin 8) (s : Fin 4096) (k : Fin 128) (d : Fin 1024) : ridx_main_v0 (ix3 a s k) d = ix2 d k :=
  funext fun x => Fin.ext (by match x with | ⟨0, _⟩ => rfl | ⟨1, _⟩ => rfl)
theorem bias_first (a : Fin 8) (s : Fin 4096) (k : Fin 128) : idx_main_v1 (idx_main_v2 (ix3 a s k)) = ix1 k :=
  funext fun x => Fin.ext (by match x with | ⟨0, _⟩ => rfl)
theorem lane_of (a : Fin 8) (s : Fin 4096) (j : Fin 128) : idx_main_v5 (ix2 a s) j = ix3 a s j :=
  funext fun x => Fin.ext (by match x with | ⟨0, _⟩ => rfl | ⟨1, _⟩ => rfl | ⟨2, _⟩ => rfl)
theorem row_of (a : Fin 8) (s : Fin 4096) (k : Fin 128) : idx_main_v6 (idx_main_v12 (ix3 a s k)) = ix2 a s :=
  funext fun x => Fin.ext (by match x with | ⟨0, _⟩ => rfl | ⟨1, _⟩ => rfl)
theorem lhs_second (a : Fin 8) (s : Fin 4096) (k : Fin 128) (j : Fin 128) : lidx_main_v14 (ix3 a s k) j = ix3 a s j :=
  funext fun x => Fin.ext (by match x with | ⟨0, _⟩ => rfl | ⟨1, _⟩ => rfl | ⟨2, _⟩ => rfl)
theorem rhs_second (a : Fin 8) (s : Fin 4096) (k : Fin 128) (j : Fin 128) : ridx_main_v14 (ix3 a s k) j = ix2 j k :=
  funext fun x => Fin.ext (by match x with | ⟨0, _⟩ => rfl | ⟨1, _⟩ => rfl)
theorem bias_second (a : Fin 8) (s : Fin 4096) (k : Fin 128) : idx_main_v15 (idx_main_v16 (ix3 a s k)) = ix1 k :=
  funext fun x => Fin.ext (by match x with | ⟨0, _⟩ => rfl)
theorem lhs_third (a : Fin 8) (s : Fin 4096) (k : Fin 128) (j : Fin 128) : lidx_main_v25 (ix3 a s k) j = ix3 a s j :=
  funext fun x => Fin.ext (by match x with | ⟨0, _⟩ => rfl | ⟨1, _⟩ => rfl | ⟨2, _⟩ => rfl)
theorem rhs_third (a : Fin 8) (s : Fin 4096) (k : Fin 128) (j : Fin 128) : ridx_main_v25 (ix3 a s k) j = ix2 j k :=
  funext fun x => Fin.ext (by match x with | ⟨0, _⟩ => rfl | ⟨1, _⟩ => rfl)
theorem bias_third (a : Fin 8) (s : Fin 4096) (k : Fin 128) : idx_main_v26 (idx_main_v27 (ix3 a s k)) = ix1 k :=
  funext fun x => Fin.ext (by match x with | ⟨0, _⟩ => rfl)

variable (x : (⟨S8x4096x1024, .f32⟩ : BufTy).Contents (Elt Ideal)) (W0 : (⟨S1024x128, .f32⟩ : BufTy).Contents (Elt Ideal))
  (b0 : (⟨S128, .f32⟩ : BufTy).Contents (Elt Ideal)) (W1 : (⟨S128x128, .f32⟩ : BufTy).Contents (Elt Ideal))
  (b1 : (⟨S128, .f32⟩ : BufTy).Contents (Elt Ideal)) (W2 : (⟨S128x128, .f32⟩ : BufTy).Contents (Elt Ideal))
  (b2 : (⟨S128, .f32⟩ : BufTy).Contents (Elt Ideal))

/-! ## The four shared values -/

/-- The affine layer: `x · W0 + b0` at `(a, s, k)`. -/
theorem affine_at (a : Fin 8) (s : Fin 4096) (k : Fin 128) :
    val_main_v3 (F := Ideal) x W0 b0 (ix3 a s k) = affine (fun d => x (ix3 a s d)) (mat (n := 1024) W0) (vec b0) k := by
  simp only [val_main_v3_apply, val_main_v0_apply, val_main_v2_apply, val_main_v1_apply, lhs_first, rhs_first, bias_first,
    Ideal.addf_def]
  rfl

/-- Its scaling by the reciprocal root of the row's mean square plus the small constant. -/
theorem normed_at (a : Fin 8) (s : Fin 4096) (k : Fin 128) :
    val_main_v13 (F := Ideal) x W0 b0 (ix3 a s k) = normed (affine (fun d => x (ix3 a s d)) (mat (n := 1024) W0) (vec b0)) k := by
  simp only [val_main_v13_apply, val_main_v12_apply, val_main_v11_apply, val_main_v10_apply, val_main_v9_apply, val_main_cst_1_apply,
    val_main_v8_apply, val_main_v7_apply, val_main_cst_0_apply, val_main_v6_apply, row_of, val_main_v5_apply, val_main_cst_apply,
    lane_of, val_main_v4_apply, affine_at, Ideal.ofBits_def, Ideal.mulf_def, Ideal.addf_def, Ideal.hostDivf_def,
    Ideal.hostUnary_rsqrt_def, Ideal.ofBits_zero_f32, zero_add]
  rfl

/-- The logistic residual block. -/
theorem sigmoid_at (a : Fin 8) (s : Fin 4096) (k : Fin 128) :
    val_main_v24 (F := Ideal) x W0 b0 W1 b1 (ix3 a s k)
      = sigmoidBlock (normed (affine (fun d => x (ix3 a s d)) (mat (n := 1024) W0) (vec b0))) (mat (n := 128) W1) (vec b1) k := by
  simp only [val_main_v24_apply, val_main_v23_apply, val_main_v22_apply, val_main_cst_3_apply, val_main_v21_apply, val_main_v20_apply,
    val_main_cst_2_apply, val_main_v19_apply, val_main_v18_apply, val_main_v17_apply, val_main_v14_apply, val_main_v16_apply,
    val_main_v15_apply, lhs_second, rhs_second, bias_second, normed_at, Ideal.ofBits_def, Ideal.addf_def, Ideal.hostDivf_def,
    Ideal.hostUnary_exp_def, Ideal.hostNegf_def, Ideal.negf_def, Cert.Consts.ofBits_one]
  rfl

/-- The rectifier residual block: the reference's result. -/
theorem result_at (a : Fin 8) (s : Fin 4096) (k : Fin 128) :
    val_main_v30 (F := Ideal) x W0 b0 W1 b1 W2 b2 (ix3 a s k)
      = row (fun d => x (ix3 a s d)) (mat (n := 1024) W0) (vec b0) (mat (n := 128) W1) (vec b1) (mat (n := 128) W2) (vec b2) k := by
  simp only [val_main_v30_apply, val_main_v29_apply, val_main_call0_v0_apply, val_main_call0_cst_apply, val_main_v28_apply,
    val_main_v25_apply, val_main_v27_apply, val_main_v26_apply, lhs_third, rhs_third, bias_third, sigmoid_at, Ideal.ofBits_def,
    Ideal.addf_def, Ideal.maximumf_def, Ideal.ofBits_zero_f32]
  rfl

/-- THE REFERENCE'S RESULT ARRAY is the row network on every row. -/
theorem result_eq : val_main_v30 (F := Ideal) x W0 b0 W1 b1 W2 b2 = onGroups x W0 b0 W1 b1 W2 b2 := by
  funext i
  obtain ⟨a, s, k, rfl⟩ : ∃ (a : Fin 8) (s : Fin 4096) (k : Fin 128), i = ix3 a s k := ⟨i 0, i 1, i 2, eq_ix3 i⟩
  rw [result_at, onGroups_apply]

end Cert.ReferenceIdeal.RefValue

end
-- ==== Proof.lean ====
/-
  The kernel applies, to every row of the input, a small network: an affine layer from 1024 to 128 features,
  the scaling of the result by the reciprocal root of its mean square (plus a small constant), a logistic residual
  block and a rectifier residual block. It does so 2048 rows at a time over a grid of 16 points, on the input's
  8 x 4096 rows viewed as one matrix of 32768 rows; the reference does it on the rank-3 input at once.

  At the exact extended reals both compute, at entry (a, s, k), the same function of row (a, s) of the input and of
  the weights: Proof/RowNetwork.lean states it once (the row network, and the result array `onGroups`);
  Proof/KernelRow.lean, Proof/KernelArray.lean and Proof/KernelRun.lean read the kernel's program as that function
  (a block's entry, the blocks tiling the result, the reshapes around the region); Proof/ReferenceRow.lean reads the
  reference as that function. No algebraic law is needed beyond reading a matrix product into a zero accumulator and
  a lane sum as plain sums, the word 1.0 as 1 and the word 0.0 as 0: the two programs perform the same operations in
  the same order on every row, and differ only in how the rows are laid out. The precondition is not used.

  The three frames are the generated frame proofs (the reference's: its generated run, the result dropped); the
  idealization rewrote nothing, so `preserves` is trivial.
-/
import proofs.«177063_j64132451664296_2_alg».proof.Defs
import proofs.«177063_j64132451664296_2_alg».proof.Proof.Gen.Kernel
import proofs.«177063_j64132451664296_2_alg».proof.Proof.Gen.Kernel.Skeleton
import proofs.«177063_j64132451664296_2_alg».proof.Proof.Gen.Kernel.Launch
import proofs.«177063_j64132451664296_2_alg».proof.Proof.Gen.Kernel.Points
import proofs.«177063_j64132451664296_2_alg».proof.Proof.Gen.Kernel.Frame
import proofs.«177063_j64132451664296_2_alg».proof.Proof.Gen.KernelIdeal
import proofs.«177063_j64132451664296_2_alg».proof.Proof.Gen.KernelIdeal.Skeleton
import proofs.«177063_j64132451664296_2_alg».proof.Proof.Gen.KernelIdeal.Launch
import proofs.«177063_j64132451664296_2_alg».proof.Proof.Gen.KernelIdeal.Points
import proofs.«177063_j64132451664296_2_alg».proof.Proof.Gen.KernelIdeal.Frame
import proofs.«177063_j64132451664296_2_alg».proof.Proof.Gen.ReferenceIdeal
import proofs.«177063_j64132451664296_2_alg».proof.Proof.Gen.Pre_finite_inputs
import proofs.«177063_j64132451664296_2_alg».proof.Proof.Gen.ReferenceIdeal.Run
import proofs.«177063_j64132451664296_2_alg».proof.Proof.Gen.ReferenceIdeal.Read
import proofs.«177063_j64132451664296_2_alg».proof.Proof.KernelRun
import proofs.«177063_j64132451664296_2_alg».proof.Proof.ReferenceRow
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the row network of the arguments, entry by entry. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefValue.result_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
